-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x1 : Shape := ⟨2, ![16777216, 1]⟩
abbrev S_ : Shape := ⟨0, ![]⟩

class Facts : Prop where
  bcast_S_S16777216x1 : S_.BroadcastsInDim S16777216x1 (![] : Fin 0 → Fin S16777216x1.rank)
  reducesTo_S16777216x1_S_d0_1 : S16777216x1.ReducesTo [0, 1] S_
  h_S_ : 0 < S_.numel

variable [Facts]

def fn {F : FTy → Type} [FloatOps F] (main_arg0 : FVec F S16777216x1 .f32) (main_arg1 : FVec F S16777216x1 .f32) (main_arg2 : FVec F S16777216x1 .f32) : IVec S_ 1 :=
  let main_v0 : FVec F S16777216x1 .f32 := Host.absf main_arg0
  let main_cst : FVec F S_ .f32 := constant S_ .f32 0x7F800000#32
  let main_v1 : FVec F S16777216x1 .f32 := broadcastInDim S16777216x1 ![] bcast_S_S16777216x1 main_cst
  let main_v2 : IVec S16777216x1 1 := cmpf .olt main_v0 main_v1
  let main_c : IVec S_ 1 := constantI S_ 1 1#1
  let main_v3 : IVec S_ 1 := (fun x v => Host.reduce IntOp.andi x v reducesTo_S16777216x1_S_d0_1 h_S_) main_v2 main_c
  let main_v4 : FVec F S16777216x1 .f32 := Host.absf main_arg1
  let main_cst_0 : FVec F S_ .f32 := constant S_ .f32 0x7F800000#32
  let main_v5 : FVec F S16777216x1 .f32 := broadcastInDim S16777216x1 ![] bcast_S_S16777216x1 main_cst_0
  let main_v6 : IVec S16777216x1 1 := cmpf .olt main_v4 main_v5
  let main_c_1 : IVec S_ 1 := constantI S_ 1 1#1
  let main_v7 : IVec S_ 1 := (fun x v => Host.reduce IntOp.andi x v reducesTo_S16777216x1_S_d0_1 h_S_) main_v6 main_c_1
  let main_v8 : IVec S_ 1 := andi main_v3 main_v7
  let main_v9 : FVec F S16777216x1 .f32 := Host.absf main_arg2
  let main_cst_2 : FVec F S_ .f32 := constant S_ .f32 0x7F800000#32
  let main_v10 : FVec F S16777216x1 .f32 := broadcastInDim S16777216x1 ![] bcast_S_S16777216x1 main_cst_2
  let main_v11 : IVec S16777216x1 1 := cmpf .olt main_v9 main_v10
  let main_c_3 : IVec S_ 1 := constantI S_ 1 1#1
  let main_v12 : IVec S_ 1 := (fun x v => Host.reduce IntOp.andi x v reducesTo_S16777216x1_S_d0_1 h_S_) main_v11 main_c_3
  let main_v13 : IVec S_ 1 := andi main_v8 main_v12
  main_v13
-- ==== Kernel.lean ====
abbrev S16777216x1 : Shape := ⟨2, ![16777216, 1]⟩
abbrev S131072x128 : Shape := ⟨2, ![131072, 128]⟩
abbrev S4096x128 : Shape := ⟨2, ![4096, 128]⟩

abbrev nBuf : Space → Nat
  | .hbm => 12
  | .vmem => 12
  | .smem => 0
  | _ => 0

abbrev bufTy : (tb : Table) → Fin (tcTables nBuf tb) → BufTy
  | .hbm, ⟨0, _⟩ => ⟨S16777216x1, .f32⟩
  | .hbm, ⟨1, _⟩ => ⟨S16777216x1, .f32⟩
  | .hbm, ⟨2, _⟩ => ⟨S16777216x1, .f32⟩
  | .hbm, ⟨3, _⟩ => ⟨S131072x128, .f32⟩
  | .hbm, ⟨4, _⟩ => ⟨S131072x128, .f32⟩
  | .hbm, ⟨5, _⟩ => ⟨S131072x128, .f32⟩
  | .hbm, ⟨6, _⟩ => ⟨S131072x128, .f32⟩
  | .hbm, ⟨7, _⟩ => ⟨S131072x128, .f32⟩
  | .hbm, ⟨8, _⟩ => ⟨S131072x128, .f32⟩
  | .hbm, ⟨9, _⟩ => ⟨S16777216x1, .f32⟩
  | .hbm, ⟨10, _⟩ => ⟨S16777216x1, .f32⟩
  | .hbm, ⟨11, _⟩ => ⟨S16777216x1, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | _, _ => ⟨S16777216x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3_0 : Ref sig .tc := ⟨.hbm, 6, rfl⟩
abbrev main_call0_v3_1 : Ref sig .tc := ⟨.hbm, 7, rfl⟩
abbrev main_call0_v3_2 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16777216x1_S131072x128 : S16777216x1.ShapeCasts S131072x128
  shapeCasts_S131072x128_S16777216x1 : S131072x128.ShapeCasts S16777216x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S131072x128.size a
  hwx0_2 : ∀ i : grid0.Coords, EltTy.bits .f32 = 32 ∨ (Rect.block (s := S131072x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S131072x128.size a
  hwx0_3 : ∀ i : grid0.Coords, EltTy.bits .f32 = 32 ∨ (Rect.block (s := S131072x128) S4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S131072x128.size a
  hwx0_4 : ∀ i : grid0.Coords, EltTy.bits .f32 = 32 ∨ (Rect.block (s := S131072x128) S4096x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S131072x128.size a
  hwx0_5 : ∀ i : grid0.Coords, EltTy.bits .f32 = 32 ∨ (Rect.block (s := S131072x128) S4096x128.size (cc0_transform_5 i) (hinb0_5 i)).WholeWords (EltTy.packing .f32)

variable [Facts₀]

abbrev win0_0 : Pipeline.Window sig grid0 :=
  Pipeline.Window.ofSpec (Memref.whole main_call0_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3_0) S4096x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3_1) S4096x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3_2) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16777216x1 : Shape := ⟨2, ![16777216, 1]⟩
abbrev S_ : Shape := ⟨0, ![]⟩

abbrev nBuf : Space → Nat
  | .hbm => 158
  | .vmem => 0
  | .smem => 0
  | _ => 0

abbrev hbmTy0_0 (i : Nat) : BufTy := match i % 128 with
  | 0 => ⟨S16777216x1, .f32⟩
  | 1 => ⟨S16777216x1, .f32⟩
  | 2 => ⟨S16777216x1, .f32⟩
  | 3 => ⟨S_, .f32⟩
  | 4 => ⟨S16777216x1, .f32⟩
  | 5 => ⟨S16777216x1, .i1⟩
  | 6 => ⟨S16777216x1, .f32⟩
  | 7 => ⟨S_, .f32⟩
  | 8 => ⟨S16777216x1, .f32⟩
  | 9 => ⟨S16777216x1, .f32⟩
  | 10 => ⟨S16777216x1, .f32⟩
  | 11 => ⟨S16777216x1, .f32⟩
  | 12 => ⟨S16777216x1, .f32⟩
  | 13 => ⟨S_, .f32⟩
  | 14 => ⟨S16777216x1, .f32⟩
  | 15 => ⟨S16777216x1, .f32⟩
  | 16 => ⟨S_, .f32⟩
  | 17 => ⟨S16777216x1, .f32⟩
  | 18 => ⟨S16777216x1, .f32⟩
  | 19 => ⟨S_, .f32⟩
  | 20 => ⟨S16777216x1, .f32⟩
  | 21 => ⟨S16777216x1, .f32⟩
  | 22 => ⟨S16777216x1, .f32⟩
  | 23 => ⟨S16777216x1, .f32⟩
  | 24 => ⟨S16777216x1, .f32⟩
  | 25 => ⟨S_, .f32⟩
  | 26 => ⟨S16777216x1, .f32⟩
  | 27 => ⟨S16777216x1, .i1⟩
  | 28 => ⟨S16777216x1, .f32⟩
  | 29 => ⟨S_, .f32⟩
  | 30 => ⟨S16777216x1, .f32⟩
  | 31 => ⟨S16777216x1, .f32⟩
  | 32 => ⟨S16777216x1, .f32⟩
  | 33 => ⟨S16777216x1, .f32⟩
  | 34 => ⟨S16777216x1, .f32⟩
  | 35 => ⟨S_, .f32⟩
  | 36 => ⟨S16777216x1, .f32⟩
  | 37 => ⟨S16777216x1, .f32⟩
  | 38 => ⟨S_, .f32⟩
  | 39 => ⟨S16777216x1, .f32⟩
  | 40 => ⟨S16777216x1, .f32⟩
  | 41 => ⟨S_, .f32⟩
  | 42 => ⟨S16777216x1, .f32⟩
  | 43 => ⟨S16777216x1, .f32⟩
  | 44 => ⟨S16777216x1, .f32⟩
  | 45 => ⟨S_, .f32⟩
  | 46 => ⟨S16777216x1, .f32⟩
  | 47 => ⟨S16777216x1, .i1⟩
  | 48 => ⟨S16777216x1, .f32⟩
  | 49 => ⟨S_, .f32⟩
  | 50 => ⟨S16777216x1, .f32⟩
  | 51 => ⟨S16777216x1, .f32⟩
  | 52 => ⟨S16777216x1, .f32⟩
  | 53 => ⟨S16777216x1, .f32⟩
  | 54 => ⟨S16777216x1, .f32⟩
  | 55 => ⟨S_, .f32⟩
  | 56 => ⟨S16777216x1, .f32⟩
  | 57 => ⟨S16777216x1, .f32⟩
  | 58 => ⟨S_, .f32⟩
  | 59 => ⟨S16777216x1, .f32⟩
  | 60 => ⟨S16777216x1, .f32⟩
  | 61 => ⟨S_, .f32⟩
  | 62 => ⟨S16777216x1, .f32⟩
  | 63 => ⟨S16777216x1, .f32⟩
  | 64 => ⟨S16777216x1, .f32⟩
  | 65 => ⟨S_, .f32⟩
  | 66 => ⟨S16777216x1, .f32⟩
  | 67 => ⟨S16777216x1, .i1⟩
  | 68 => ⟨S16777216x1, .f32⟩
  | 69 => ⟨S_, .f32⟩
  | 70 => ⟨S16777216x1, .f32⟩
  | 71 => ⟨S16777216x1, .f32⟩
  | 72 => ⟨S16777216x1, .f32⟩
  | 73 => ⟨S16777216x1, .f32⟩
  | 74 => ⟨S16777216x1, .f32⟩
  | 75 => ⟨S_, .f32⟩
  | 76 => ⟨S16777216x1, .f32⟩
  | 77 => ⟨S16777216x1, .f32⟩
  | 78 => ⟨S_, .f32⟩
  | 79 => ⟨S16777216x1, .f32⟩
  | 80 => ⟨S16777216x1, .f32⟩
  | 81 => ⟨S_, .f32⟩
  | 82 => ⟨S16777216x1, .f32⟩
  | 83 => ⟨S16777216x1, .f32⟩
  | 84 => ⟨S16777216x1, .f32⟩
  | 85 => ⟨S16777216x1, .f32⟩
  | 86 => ⟨S16777216x1, .f32⟩
  | 87 => ⟨S16777216x1, .f32⟩
  | 88 => ⟨S16777216x1, .f32⟩
  | 89 => ⟨S16777216x1, .f32⟩
  | 90 => ⟨S16777216x1, .f32⟩
  | 91 => ⟨S16777216x1, .f32⟩
  | 92 => ⟨S16777216x1, .f32⟩
  | 93 => ⟨S_, .f32⟩
  | 94 => ⟨S16777216x1, .f32⟩
  | 95 => ⟨S16777216x1, .f32⟩
  | 96 => ⟨S_, .f32⟩
  | 97 => ⟨S16777216x1, .f32⟩
  | 98 => ⟨S16777216x1, .f32⟩
  | 99 => ⟨S_, .f32⟩
  | 100 => ⟨S16777216x1, .f32⟩
  | 101 => ⟨S16777216x1, .i1⟩
  | 102 => ⟨S_, .f32⟩
  | 103 => ⟨S16777216x1, .f32⟩
  | 104 => ⟨S16777216x1, .f32⟩
  | 105 => ⟨S16777216x1, .f32⟩
  | 106 => ⟨S_, .f32⟩
  | 107 => ⟨S16777216x1, .f32⟩
  | 108 => ⟨S16777216x1, .f32⟩
  | 109 => ⟨S16777216x1, .f32⟩
  | 110 => ⟨S16777216x1, .f32⟩
  | 111 => ⟨S16777216x1, .f32⟩
  | 112 => ⟨S16777216x1, .f32⟩
  | 113 => ⟨S_, .f32⟩
  | 114 => ⟨S16777216x1, .f32⟩
  | 115 => ⟨S16777216x1, .i1⟩
  | 116 => ⟨S_, .f32⟩
  | 117 => ⟨S_, .f32⟩
  | 118 => ⟨S16777216x1, .f32⟩
  | 119 => ⟨S16777216x1, .f32⟩
  | 120 => ⟨S_, .f32⟩
  | 121 => ⟨S16777216x1, .f32⟩
  | 122 => ⟨S16777216x1, .f32⟩
  | 123 => ⟨S_, .f32⟩
  | 124 => ⟨S16777216x1, .f32⟩
  | 125 => ⟨S16777216x1, .f32⟩
  | 126 => ⟨S16777216x1, .f32⟩
  | 127 => ⟨S_, .f32⟩
  | _ => ⟨S16777216x1, .f32⟩

abbrev hbmTy0_1 (i : Nat) : BufTy := match i % 128 with
  | 0 => ⟨S16777216x1, .f32⟩
  | 1 => ⟨S16777216x1, .i1⟩
  | 2 => ⟨S_, .f32⟩
  | 3 => ⟨S16777216x1, .f32⟩
  | 4 => ⟨S16777216x1, .i1⟩
  | 5 => ⟨S16777216x1, .f32⟩
  | 6 => ⟨S16777216x1, .f32⟩
  | 7 => ⟨S_, .f32⟩
  | 8 => ⟨S_, .f32⟩
  | 9 => ⟨S16777216x1, .f32⟩
  | 10 => ⟨S16777216x1, .f32⟩
  | 11 => ⟨S16777216x1, .f32⟩
  | 12 => ⟨S16777216x1, .f32⟩
  | 13 => ⟨S16777216x1, .f32⟩
  | 14 => ⟨S_, .f32⟩
  | 15 => ⟨S16777216x1, .f32⟩
  | 16 => ⟨S16777216x1, .i1⟩
  | 17 => ⟨S16777216x1, .f32⟩
  | 18 => ⟨S16777216x1, .f32⟩
  | 19 => ⟨S16777216x1, .f32⟩
  | 20 => ⟨S16777216x1, .f32⟩
  | 21 => ⟨S16777216x1, .f32⟩
  | 22 => ⟨S_, .f32⟩
  | 23 => ⟨S16777216x1, .f32⟩
  | 24 => ⟨S16777216x1, .i1⟩
  | 25 => ⟨S16777216x1, .f32⟩
  | 26 => ⟨S16777216x1, .f32⟩
  | 27 => ⟨S16777216x1, .f32⟩
  | 28 => ⟨S16777216x1, .f32⟩
  | 29 => ⟨S16777216x1, .f32⟩
  | _ => ⟨S16777216x1, .f32⟩

abbrev hbmTy (i : Nat) : BufTy := match i / 128 with
  | 0 => hbmTy0_0 i
  | 1 => hbmTy0_1 i
  | _ => ⟨S16777216x1, .f32⟩

abbrev bufTy : (tb : Table) → Fin (tcTables nBuf tb) → BufTy
  | .hbm, ⟨i, _⟩ => hbmTy i
  | _, _ => ⟨S16777216x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call1_v0 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_10 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_11 : Ref sig .tc := ⟨.hbm, 55, rfl⟩
abbrev main_v39 : Ref sig .tc := ⟨.hbm, 56, rfl⟩
abbrev main_v40 : Ref sig .tc := ⟨.hbm, 57, rfl⟩
abbrev main_cst_12 : Ref sig .tc := ⟨.hbm, 58, rfl⟩
abbrev main_v41 : Ref sig .tc := ⟨.hbm, 59, rfl⟩
abbrev main_v42 : Ref sig .tc := ⟨.hbm, 60, rfl⟩
abbrev main_cst_13 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_14 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_15 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_16 : Ref sig .tc := ⟨.hbm, 75, rfl⟩
abbrev main_v54 : Ref sig .tc := ⟨.hbm, 76, rfl⟩
abbrev main_v55 : Ref sig .tc := ⟨.hbm, 77, rfl⟩
abbrev main_cst_17 : Ref sig .tc := ⟨.hbm, 78, rfl⟩
abbrev main_v56 : Ref sig .tc := ⟨.hbm, 79, rfl⟩
abbrev main_v57 : Ref sig .tc := ⟨.hbm, 80, rfl⟩
abbrev main_cst_18 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_19 : Ref sig .tc := ⟨.hbm, 93, rfl⟩
abbrev main_v69 : Ref sig .tc := ⟨.hbm, 94, rfl⟩
abbrev main_v70 : Ref sig .tc := ⟨.hbm, 95, rfl⟩
abbrev main_cst_20 : Ref sig .tc := ⟨.hbm, 96, rfl⟩
abbrev main_v71 : Ref sig .tc := ⟨.hbm, 97, rfl⟩
abbrev main_v72 : Ref sig .tc := ⟨.hbm, 98, rfl⟩
abbrev main_cst_21 : Ref sig .tc := ⟨.hbm, 99, rfl⟩
abbrev main_v73 : Ref sig .tc := ⟨.hbm, 100, rfl⟩
abbrev main_v74 : Ref sig .tc := ⟨.hbm, 101, rfl⟩
abbrev main_cst_22 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_23 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_24 : Ref sig .tc := ⟨.hbm, 113, rfl⟩
abbrev main_v84 : Ref sig .tc := ⟨.hbm, 114, rfl⟩
abbrev main_v85 : Ref sig .tc := ⟨.hbm, 115, rfl⟩
abbrev main_cst_25 : Ref sig .tc := ⟨.hbm, 116, rfl⟩
abbrev main_call6_v0 : Ref sig .tc := ⟨.hbm, 117, rfl⟩
abbrev main_call6_v1 : Ref sig .tc := ⟨.hbm, 118, rfl⟩
abbrev main_v86 : Ref sig .tc := ⟨.hbm, 119, rfl⟩
abbrev main_cst_26 : Ref sig .tc := ⟨.hbm, 120, rfl⟩
abbrev main_v87 : Ref sig .tc := ⟨.hbm, 121, rfl⟩
abbrev main_v88 : Ref sig .tc := ⟨.hbm, 122, rfl⟩
abbrev main_cst_27 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_28 : Ref sig .tc := ⟨.hbm, 127, rfl⟩
abbrev main_v92 : Ref sig .tc := ⟨.hbm, 128, rfl⟩
abbrev main_v93 : Ref sig .tc := ⟨.hbm, 129, rfl⟩
abbrev main_cst_29 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_30 : Ref sig .tc := ⟨.hbm, 135, rfl⟩
abbrev main_call9_v0 : Ref sig .tc := ⟨.hbm, 136, rfl⟩
abbrev main_call9_v1 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_31 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_32 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩

abbrev nD : Nat := 1
abbrev τ : Topo := Topo.v7x

variable {F : FTy → Type} [FloatOps F]

class Facts₀ : Prop where
  bcast_S_S16777216x1 : S_.BroadcastsInDim S16777216x1 (![] : Fin 0 → Fin S16777216x1.rank)

variable [Facts₀]

class Facts : Prop extends Facts₀ where

variable [Facts]
-- ==== Proof.SpuSpec.lean ====
/-
  The activation, its derivative and the interval bounds built from them, as functions of ONE triple of extended
  reals (an element x with its lower bound l and upper bound u). Every array either program computes is one of
  these functions applied element by element, so the certificate compares the two programs at a single element.

  spu t   = t² − ½ for t ≥ 0, and σ(−t) − 1 for t < 0, where σ(z) = 1 / (1 + e^(−z));
  dspu t  = 2t for t ≥ 0, and −σ(−t)·(1 − σ(−t)) for t < 0 (the derivative of spu away from 0);
  the clamped point p = min u (max l x);
  the chord through (l, spu l) and (u, spu u), the tangent at p, and the line through (l, spu l) and (0, −½);
  the lower line is the tangent (p ≥ 0) or the line through the origin's value (p < 0) when u > 0, else the chord;
  the upper line is the chord when u > 0, else the tangent;
  each bound is its line's intercept plus the line's slope taken at the end of [l, u] that the slope's sign picks.

  Comparisons are the bits `Ideal.cmp` answers (1 when the relation holds) and a choice reads that bit; a quotient
  is `Ideal.div`, total on the extended reals. Nothing here needs an element to be finite.
-/
import Idealize.ShloMosaic.PureOps.Ideal

noncomputable section

namespace Cert.Spu

open Idealize.ShloMosaic

/-- ½, −½ and 2 as the extended reals their 32-bit patterns denote. Both programs spell the same three patterns, so
    the patterns are never evaluated. -/
def half : EReal := Ideal.ofBits .f32 0x3F000000#32
def negHalf : EReal := Ideal.ofBits .f32 0xBF000000#32
def two : EReal := Ideal.ofBits .f32 0x40000000#32

/-- σ(−t) = 1 / (1 + e^t): the logistic function at the negated argument. -/
def sigNeg (t : EReal) : EReal := Ideal.logistic (-t)

/-- The activation: t² − ½ on t ≥ 0, σ(−t) − 1 below. -/
def spu (t : EReal) : EReal :=
  Scalar.select (Ideal.cmp .oge t 0) (t * t - half) (sigNeg t - 1)

/-- Its slope: 2t on t ≥ 0, −σ(−t)·(1 − σ(−t)) below. -/
def dspu (t : EReal) : EReal :=
  Scalar.select (Ideal.cmp .oge t 0) (two * t) (-(sigNeg t) * (1 - sigNeg t))

/-- x clamped to [l, u]. -/
def clip (x l u : EReal) : EReal := min u (max l x)

/-- The chord through (l, spu l) and (u, spu u): slope and intercept. -/
def chordSlope (l u : EReal) : EReal := Ideal.div (spu u - spu l) (u - l)
def chordInt (l u : EReal) : EReal := spu l - chordSlope l u * l

/-- The tangent at p: its intercept (its slope is `dspu p`). -/
def tanInt (p : EReal) : EReal := spu p - p * dspu p

/-- The line through (l, spu l) and (0, −½): its slope, with l replaced by 1 where l = 0 so that the quotient's
    divisor is never 0 (its intercept is −½). -/
def originSlope (l : EReal) : EReal :=
  Ideal.div (negHalf - spu l) (-(Scalar.select (Ideal.cmp .one l 0) l 1))

/-- The lower line: tangent at p or the line through (0, −½) when u > 0, else the chord. -/
def lbSlope (x l u : EReal) : EReal :=
  Scalar.select (Ideal.cmp .ogt u 0)
    (Scalar.select (Ideal.cmp .oge (clip x l u) 0) (dspu (clip x l u)) (originSlope l)) (chordSlope l u)
def lbInt (x l u : EReal) : EReal :=
  Scalar.select (Ideal.cmp .ogt u 0)
    (Scalar.select (Ideal.cmp .oge (clip x l u) 0) (tanInt (clip x l u)) negHalf) (chordInt l u)

/-- The upper line: the chord when u > 0, else the tangent at p. -/
def ubSlope (x l u : EReal) : EReal :=
  Scalar.select (Ideal.cmp .ogt u 0) (chordSlope l u) (dspu (clip x l u))
def ubInt (x l u : EReal) : EReal :=
  Scalar.select (Ideal.cmp .ogt u 0) (chordInt l u) (tanInt (clip x l u))

/-- The lower bound: the lower line at l when its slope is positive (written l·(−slope)), at u otherwise. -/
def lOut (x l u : EReal) : EReal :=
  lbInt x l u + Scalar.select (Ideal.cmp .ogt (lbSlope x l u) 0) (l * (-(lbSlope x l u))) (u * lbSlope x l u)

/-- The upper bound: the upper line at u when its slope is positive, otherwise l·(−slope of the LOWER line), as
    both programs write it. -/
def uOut (x l u : EReal) : EReal :=
  ubInt x l u + Scalar.select (Ideal.cmp .ogt (ubSlope x l u) 0) (u * ubSlope x l u) (l * (-(lbSlope x l u)))

end Cert.Spu

end
-- ==== Proof.LibWords.lean ====
/-
  The five 32-bit patterns the two programs spell, as the extended reals they denote: +0.0 is 0, 2.0 is the
  real 2, the all-ones exponent with a zero significand is +∞, 32768.0 = 2¹⁵ is the real 32768, and 1.0 is 1.
  A normal pattern with exponent field E and significand field T denotes (2²³ + T) · 2^(E − 127 − 23).
-/
import Idealize.ShloMosaic.PureOps.Ideal

noncomputable section

namespace Cert.Chamfer.Words

open Idealize.ShloMosaic

/-- +0.0 denotes 0. -/
theorem ofBits_zero : Ideal.ofBits .f32 0x00000000#32 = 0 := by
  simp [Ideal.ofBits, Ideal.ieee]

/-- 2.0: exponent field 128, significand field 0, so 2²³ · 2^(128 − 150) = 2. -/
theorem ofBits_two : Ideal.ofBits .f32 0x40000000#32 = ((2 : ℝ) : EReal) := by
  simp [Ideal.ofBits, Ideal.ieee, -EReal.coe_mul]; norm_num

/-- The all-ones exponent with a zero significand and a clear sign bit denotes +∞. -/
theorem ofBits_top : Ideal.ofBits .f32 0x7F800000#32 = ⊤ := by
  simp [Ideal.ofBits, Ideal.ieee]

/-- 32768.0: exponent field 142, significand field 0, so 2²³ · 2^(142 − 150) = 2¹⁵. -/
theorem ofBits_32768 : Ideal.ofBits .f32 0x47000000#32 = ((32768 : ℝ) : EReal) := by
  simp [Ideal.ofBits, Ideal.ieee, -EReal.coe_mul]; norm_num

/-- 1.0: exponent field 127, significand field 0, so 2²³ · 2^(127 − 150) = 1. -/
theorem ofBits_one : Ideal.ofBits .f32 0x3F800000#32 = 1 := by
  simp [Ideal.ofBits, Ideal.ieee, -EReal.coe_mul]; norm_num

end Cert.Chamfer.Words

end
-- ==== Proof.SpuReference.lean ====
/-
  The reference program read at one element. Its three results are arrays over the same index set as its three
  arguments, and every operation it applies acts element by element (a scalar constant is first spread over the index
  set), so each result at an index i is a function of the arguments at i alone: the activation of x for the first
  result, the lower and the upper bound of (x, l, u) for the other two. The reference spells the logistic function
  σ(−t) as 1 / (1 + e^(−(−t))) with the pattern of 1.0 for both ones; with that pattern read as 1 this is
  `Ideal.logistic (-t)` by definition. It spells 0 − s, where the pattern of +0.0 is the minuend, for the negated
  "safe" l, and that pattern reads as 0. Its "not equal" is the unordered one, which on the extended reals is the
  ordered one (nothing is unordered).
-/
import proofs.«141930_j37503654429000_1_alg».proof.Proof.Gen.ReferenceIdeal.Read
import proofs.«141930_j37503654429000_1_alg».proof.Proof.SpuSpec
import proofs.«141930_j37503654429000_1_alg».proof.Proof.LibWords

noncomputable section

namespace Cert.Spu.Ref

open Cert.ReferenceIdeal Cert.ReferenceIdeal.Read Idealize.ShloMosaic Cert.Chamfer.Words

/-- An argument or result array of the reference: 16 777 216 × 1 extended reals. -/
abbrev Arr := FVec Ideal S16777216x1 .f32

variable (x l u : Arr) (i : S16777216x1.Idx)

/-- The first result: the activation of x. -/
theorem spu_x : val_main_v14 (F := Ideal) x i = spu (x i) := by
  simp only [val_main_v14, val_main_cst, val_main_v0, val_main_v1, val_main_v2, val_main_cst_0, val_main_v3, val_main_v4,
    val_main_v5, val_main_v6, val_main_v7, val_main_cst_1, val_main_v8, val_main_v9, val_main_cst_2, val_main_v10,
    val_main_v11, val_main_cst_3, val_main_v12, val_main_v13,
    select, cmpf, subf, mulf, addf, maximumf, minimumf, Host.divf, Host.exp, Host.negf, broadcastInDim, constant, id,
    Ideal.subf_def, Ideal.mulf_def, Ideal.addf_def, Ideal.maximumf_def, Ideal.minimumf_def, Ideal.hostDivf_def, Ideal.hostUnary_exp_def, Ideal.hostNegf_def,
    Ideal.negf_def, Ideal.ofBits_def, ofBits_zero, ofBits_one]
  rfl

/-- The clamped point p = min u (max l x). -/
theorem clip_at : val_main_v15 (F := Ideal) x l u i = clip (x i) (l i) (u i) := by
  simp only [val_main_v15, val_main_call1_v0,
    select, cmpf, subf, mulf, addf, maximumf, minimumf, Host.divf, Host.exp, Host.negf, broadcastInDim, constant, id,
    Ideal.subf_def, Ideal.mulf_def, Ideal.addf_def, Ideal.maximumf_def, Ideal.minimumf_def, Ideal.hostDivf_def, Ideal.hostUnary_exp_def, Ideal.hostNegf_def,
    Ideal.negf_def, Ideal.ofBits_def, ofBits_zero, ofBits_one]
  rfl

/-- The activation of the lower end l. -/
theorem spu_l : val_main_v30 (F := Ideal) l i = spu (l i) := by
  simp only [val_main_v30, val_main_cst_4, val_main_v16, val_main_v17, val_main_v18, val_main_cst_5, val_main_v19,
    val_main_v20, val_main_v21, val_main_v22, val_main_v23, val_main_cst_6, val_main_v24, val_main_v25,
    val_main_cst_7, val_main_v26, val_main_v27, val_main_cst_8, val_main_v28, val_main_v29,
    select, cmpf, subf, mulf, addf, maximumf, minimumf, Host.divf, Host.exp, Host.negf, broadcastInDim, constant, id,
    Ideal.subf_def, Ideal.mulf_def, Ideal.addf_def, Ideal.maximumf_def, Ideal.minimumf_def, Ideal.hostDivf_def, Ideal.hostUnary_exp_def, Ideal.hostNegf_def,
    Ideal.negf_def, Ideal.ofBits_def, ofBits_zero, ofBits_one]
  rfl

/-- The activation of the upper end u. -/
theorem spu_u : val_main_v45 (F := Ideal) u i = spu (u i) := by
  simp only [val_main_v45, val_main_cst_9, val_main_v31, val_main_v32, val_main_v33, val_main_cst_10, val_main_v34,
    val_main_v35, val_main_v36, val_main_v37, val_main_v38, val_main_cst_11, val_main_v39, val_main_v40,
    val_main_cst_12, val_main_v41, val_main_v42, val_main_cst_13, val_main_v43, val_main_v44,
    select, cmpf, subf, mulf, addf, maximumf, minimumf, Host.divf, Host.exp, Host.negf, broadcastInDim, constant, id,
    Ideal.subf_def, Ideal.mulf_def, Ideal.addf_def, Ideal.maximumf_def, Ideal.minimumf_def, Ideal.hostDivf_def, Ideal.hostUnary_exp_def, Ideal.hostNegf_def,
    Ideal.negf_def, Ideal.ofBits_def, ofBits_zero, ofBits_one]
  rfl

/-- The activation of the clamped point. -/
theorem spu_p : val_main_v60 (F := Ideal) x l u i = spu (clip (x i) (l i) (u i)) := by
  simp only [val_main_v60, val_main_cst_14, val_main_v46, val_main_v47, val_main_v48, val_main_cst_15, val_main_v49,
    val_main_v50, val_main_v51, val_main_v52, val_main_v53, val_main_cst_16, val_main_v54, val_main_v55,
    val_main_cst_17, val_main_v56, val_main_v57, val_main_cst_18, val_main_v58, val_main_v59,
    clip_at,
    select, cmpf, subf, mulf, addf, maximumf, minimumf, Host.divf, Host.exp, Host.negf, broadcastInDim, constant, id,
    Ideal.subf_def, Ideal.mulf_def, Ideal.addf_def, Ideal.maximumf_def, Ideal.minimumf_def, Ideal.hostDivf_def, Ideal.hostUnary_exp_def, Ideal.hostNegf_def,
    Ideal.negf_def, Ideal.ofBits_def, ofBits_zero, ofBits_one]
  rfl

/-- The chord's slope (spu u − spu l) / (u − l). -/
theorem chordSlope_at : val_main_v63 (F := Ideal) l u i = chordSlope (l i) (u i) := by
  simp only [val_main_v63, val_main_v61, val_main_v62,
    spu_l, spu_u,
    select, cmpf, subf, mulf, addf, maximumf, minimumf, Host.divf, Host.exp, Host.negf, broadcastInDim, constant, id,
    Ideal.subf_def, Ideal.mulf_def, Ideal.addf_def, Ideal.maximumf_def, Ideal.minimumf_def, Ideal.hostDivf_def, Ideal.hostUnary_exp_def, Ideal.hostNegf_def,
    Ideal.negf_def, Ideal.ofBits_def, ofBits_zero, ofBits_one]
  rfl

/-- The chord's intercept spu l − slope · l. -/
theorem chordInt_at : val_main_v65 (F := Ideal) l u i = chordInt (l i) (u i) := by
  simp only [val_main_v65, val_main_v64,
    spu_l, chordSlope_at,
    select, cmpf, subf, mulf, addf, maximumf, minimumf, Host.divf, Host.exp, Host.negf, broadcastInDim, constant, id,
    Ideal.subf_def, Ideal.mulf_def, Ideal.addf_def, Ideal.maximumf_def, Ideal.minimumf_def, Ideal.hostDivf_def, Ideal.hostUnary_exp_def, Ideal.hostNegf_def,
    Ideal.negf_def, Ideal.ofBits_def, ofBits_zero, ofBits_one]
  rfl

/-- The tangent's slope at the clamped point: 2p, or −σ(−p)·(1 − σ(−p)). -/
theorem dspu_p : val_main_v81 (F := Ideal) x l u i = dspu (clip (x i) (l i) (u i)) := by
  simp only [val_main_v81, val_main_v66, val_main_v67, val_main_v68, val_main_cst_19, val_main_v69, val_main_v70,
    val_main_cst_20, val_main_v71, val_main_v72, val_main_cst_21, val_main_v73, val_main_v74, val_main_cst_22,
    val_main_v75, val_main_v76, val_main_v77, val_main_cst_23, val_main_v78, val_main_v79, val_main_v80,
    clip_at,
    select, cmpf, subf, mulf, addf, maximumf, minimumf, Host.divf, Host.exp, Host.negf, broadcastInDim, constant, id,
    Ideal.subf_def, Ideal.mulf_def, Ideal.addf_def, Ideal.maximumf_def, Ideal.minimumf_def, Ideal.hostDivf_def, Ideal.hostUnary_exp_def, Ideal.hostNegf_def,
    Ideal.negf_def, Ideal.ofBits_def, ofBits_zero, ofBits_one]
  rfl

/-- The tangent's intercept spu p − p · slope. -/
theorem tanInt_at : val_main_v83 (F := Ideal) x l u i = tanInt (clip (x i) (l i) (u i)) := by
  simp only [val_main_v83, val_main_v82,
    clip_at, spu_p, dspu_p,
    select, cmpf, subf, mulf, addf, maximumf, minimumf, Host.divf, Host.exp, Host.negf, broadcastInDim, constant, id,
    Ideal.subf_def, Ideal.mulf_def, Ideal.addf_def, Ideal.maximumf_def, Ideal.minimumf_def, Ideal.hostDivf_def, Ideal.hostUnary_exp_def, Ideal.hostNegf_def,
    Ideal.negf_def, Ideal.ofBits_def, ofBits_zero, ofBits_one]
  rfl

/-- The slope of the line through (l, spu l) and (0, −½): the divisor 0 − (l, or 1 where l = 0) is the negation. -/
theorem originSlope_at : val_main_v91 (F := Ideal) l i = originSlope (l i) := by
  simp only [val_main_v91, val_main_cst_24, val_main_v84, val_main_v85, val_main_cst_25, val_main_call6_v0, val_main_call6_v1,
    val_main_v86, val_main_cst_26, val_main_v87, val_main_v88, val_main_cst_27, val_main_v89, val_main_v90,
    spu_l,
    select, cmpf, subf, mulf, addf, maximumf, minimumf, Host.divf, Host.exp, Host.negf, broadcastInDim, constant, id,
    Ideal.subf_def, Ideal.mulf_def, Ideal.addf_def, Ideal.maximumf_def, Ideal.minimumf_def, Ideal.hostDivf_def, Ideal.hostUnary_exp_def, Ideal.hostNegf_def,
    Ideal.negf_def, Ideal.ofBits_def, ofBits_zero, ofBits_one, zero_sub]
  rfl

/-- The lower line's slope. -/
theorem lbSlope_at : val_main_v97 (F := Ideal) x l u i = lbSlope (x i) (l i) (u i) := by
  simp only [val_main_v97, val_main_cst_28, val_main_v92, val_main_v93, val_main_cst_29, val_main_v94, val_main_v95,
    val_main_v96,
    clip_at, dspu_p, originSlope_at, chordSlope_at,
    select, cmpf, subf, mulf, addf, maximumf, minimumf, Host.divf, Host.exp, Host.negf, broadcastInDim, constant, id,
    Ideal.subf_def, Ideal.mulf_def, Ideal.addf_def, Ideal.maximumf_def, Ideal.minimumf_def, Ideal.hostDivf_def, Ideal.hostUnary_exp_def, Ideal.hostNegf_def,
    Ideal.negf_def, Ideal.ofBits_def, ofBits_zero, ofBits_one]
  rfl

/-- The lower line's intercept. -/
theorem lbInt_at : val_main_v99 (F := Ideal) x l u i = lbInt (x i) (l i) (u i) := by
  simp only [val_main_v99, val_main_cst_28, val_main_v92, val_main_v93, val_main_cst_29, val_main_v94, val_main_v95,
    val_main_v96, val_main_cst_30, val_main_call9_v0, val_main_call9_v1, val_main_v98,
    clip_at, tanInt_at, chordInt_at,
    select, cmpf, subf, mulf, addf, maximumf, minimumf, Host.divf, Host.exp, Host.negf, broadcastInDim, constant, id,
    Ideal.subf_def, Ideal.mulf_def, Ideal.addf_def, Ideal.maximumf_def, Ideal.minimumf_def, Ideal.hostDivf_def, Ideal.hostUnary_exp_def, Ideal.hostNegf_def,
    Ideal.negf_def, Ideal.ofBits_def, ofBits_zero, ofBits_one]
  rfl

/-- The upper line's slope. -/
theorem ubSlope_at : val_main_v100 (F := Ideal) x l u i = ubSlope (x i) (l i) (u i) := by
  simp only [val_main_v100, val_main_cst_28, val_main_v92, val_main_v93, val_main_cst_29, val_main_v94, val_main_v95,
    val_main_v96, val_main_cst_30, val_main_call9_v0, val_main_call9_v1, val_main_v98,
    chordSlope_at, dspu_p,
    select, cmpf, subf, mulf, addf, maximumf, minimumf, Host.divf, Host.exp, Host.negf, broadcastInDim, constant, id,
    Ideal.subf_def, Ideal.mulf_def, Ideal.addf_def, Ideal.maximumf_def, Ideal.minimumf_def, Ideal.hostDivf_def, Ideal.hostUnary_exp_def, Ideal.hostNegf_def,
    Ideal.negf_def, Ideal.ofBits_def, ofBits_zero, ofBits_one]
  rfl

/-- The upper line's intercept. -/
theorem ubInt_at : val_main_v101 (F := Ideal) x l u i = ubInt (x i) (l i) (u i) := by
  simp only [val_main_v101, val_main_cst_28, val_main_v92, val_main_v93, val_main_cst_29, val_main_v94, val_main_v95,
    val_main_v96, val_main_cst_30, val_main_call9_v0, val_main_call9_v1, val_main_v98,
    chordInt_at, tanInt_at,
    select, cmpf, subf, mulf, addf, maximumf, minimumf, Host.divf, Host.exp, Host.negf, broadcastInDim, constant, id,
    Ideal.subf_def, Ideal.mulf_def, Ideal.addf_def, Ideal.maximumf_def, Ideal.minimumf_def, Ideal.hostDivf_def, Ideal.hostUnary_exp_def, Ideal.hostNegf_def,
    Ideal.negf_def, Ideal.ofBits_def, ofBits_zero, ofBits_one]
  rfl

/-- The second result: the lower bound. -/
theorem lOut_at : val_main_v108 (F := Ideal) x l u i = lOut (x i) (l i) (u i) := by
  simp only [val_main_v108, val_main_cst_31, val_main_v102, val_main_v103, val_main_v104, val_main_v105, val_main_v106,
    val_main_v107,
    lbSlope_at, lbInt_at,
    select, cmpf, subf, mulf, addf, maximumf, minimumf, Host.divf, Host.exp, Host.negf, broadcastInDim, constant, id,
    Ideal.subf_def, Ideal.mulf_def, Ideal.addf_def, Ideal.maximumf_def, Ideal.minimumf_def, Ideal.hostDivf_def, Ideal.hostUnary_exp_def, Ideal.hostNegf_def,
    Ideal.negf_def, Ideal.ofBits_def, ofBits_zero, ofBits_one]
  rfl

/-- The third result: the upper bound. -/
theorem uOut_at : val_main_v115 (F := Ideal) x l u i = uOut (x i) (l i) (u i) := by
  simp only [val_main_v115, val_main_cst_32, val_main_v109, val_main_v110, val_main_v111, val_main_v112, val_main_v113,
    val_main_v114,
    lbSlope_at, ubSlope_at, ubInt_at,
    select, cmpf, subf, mulf, addf, maximumf, minimumf, Host.divf, Host.exp, Host.negf, broadcastInDim, constant, id,
    Ideal.subf_def, Ideal.mulf_def, Ideal.addf_def, Ideal.maximumf_def, Ideal.minimumf_def, Ideal.hostDivf_def, Ideal.hostUnary_exp_def, Ideal.hostNegf_def,
    Ideal.negf_def, Ideal.ofBits_def, ofBits_zero, ofBits_one]
  rfl

end Cert.Spu.Ref

end
-- ==== Proof.SpuBody.lean ====
/-
  The kernel's body read at one element. The body loads one block of each of x, l and u, computes three blocks and
  stores them; every operation between the loads and the stores acts element by element (a scalar constant is first
  spread over the block), so each stored block at a position j is a function of the three loaded blocks at j alone:
  the activation of x, and the lower and the upper bound of (x, l, u). The body negates by subtracting from the
  pattern of +0.0, which reads as 0, so 0 − s is −s; its logistic operation is `Ideal.logistic` itself; the pattern of
  1.0 reads as 1.
-/
import proofs.«141930_j37503654429000_1_alg».proof.Proof.Gen.KernelIdeal.Skeleton
import proofs.«141930_j37503654429000_1_alg».proof.Proof.SpuSpec
import proofs.«141930_j37503654429000_1_alg».proof.Proof.LibWords
import Idealize.ShloMosaic.Lib.Pipeline.Value

noncomputable section

namespace Cert.Spu.Ker

open Cert.KernelIdeal Cert.KernelIdeal.Gen Idealize.ShloMosaic Cert.Chamfer.Words

/-- One block of an operand: 4096 × 128 extended reals. -/
abbrev Blk := Vec Ideal S4096x128 .f32

variable (x l u p : Blk) (j : S4096x128.Idx)

/-- A loaded block recast to its own shape is the block. -/
theorem pay5_eq : k0_pay5 (F := Ideal) x = x := shapeCast_self _ _
theorem pay6_eq : k0_pay6 (F := Ideal) x = x := shapeCast_self _ _
theorem pay7_eq : k0_pay7 (F := Ideal) x = x := shapeCast_self _ _

/-- The first stored block: the activation of x. -/
theorem spu_x : k0_pay8 (F := Ideal) x j = spu (x j) := by
  simp only [k0_pay8, pay5_eq, select, cmpf, subf, mulf, addf, divf, maximumf, minimumf, logistic, broadcast,
    Ideal.subf_def, Ideal.mulf_def, Ideal.addf_def, Ideal.divf_def, Ideal.maximumf_def, Ideal.minimumf_def, Ideal.logistic_def,
    Ideal.ofBits_def, ofBits_zero, ofBits_one, zero_sub]
  rfl

/-- The clamped point p = min u (max l x). -/
theorem clip_at : k0_pay9 (F := Ideal) x l u j = clip (x j) (l j) (u j) := by
  simp only [k0_pay9, pay5_eq, pay6_eq, pay7_eq, select, cmpf, subf, mulf, addf, divf, maximumf, minimumf, logistic, broadcast,
    Ideal.subf_def, Ideal.mulf_def, Ideal.addf_def, Ideal.divf_def, Ideal.maximumf_def, Ideal.minimumf_def, Ideal.logistic_def,
    Ideal.ofBits_def, ofBits_zero, ofBits_one, zero_sub]
  rfl

/-- The activation of the lower end and of the upper end. -/
theorem spu_l : k0_pay10 (F := Ideal) l j = spu (l j) := by
  simp only [k0_pay10, pay6_eq, select, cmpf, subf, mulf, addf, divf, maximumf, minimumf, logistic, broadcast,
    Ideal.subf_def, Ideal.mulf_def, Ideal.addf_def, Ideal.divf_def, Ideal.maximumf_def, Ideal.minimumf_def, Ideal.logistic_def,
    Ideal.ofBits_def, ofBits_zero, ofBits_one, zero_sub]
  rfl
theorem spu_u : k0_pay11 (F := Ideal) u j = spu (u j) := by
  simp only [k0_pay11, pay7_eq, select, cmpf, subf, mulf, addf, divf, maximumf, minimumf, logistic, broadcast,
    Ideal.subf_def, Ideal.mulf_def, Ideal.addf_def, Ideal.divf_def, Ideal.maximumf_def, Ideal.minimumf_def, Ideal.logistic_def,
    Ideal.ofBits_def, ofBits_zero, ofBits_one, zero_sub]
  rfl

/-- The chord's slope and intercept. -/
theorem chordSlope_at : k0_pay12 (F := Ideal) l u (k0_pay10 l) (k0_pay11 u) j = chordSlope (l j) (u j) := by
  simp only [k0_pay12, spu_l, spu_u, select, cmpf, subf, mulf, addf, divf, maximumf, minimumf, logistic, broadcast,
    Ideal.subf_def, Ideal.mulf_def, Ideal.addf_def, Ideal.divf_def, Ideal.maximumf_def, Ideal.minimumf_def, Ideal.logistic_def,
    Ideal.ofBits_def, ofBits_zero, ofBits_one, zero_sub]
  rfl
theorem chordInt_at : k0_pay13 (F := Ideal) l u (k0_pay10 l) (k0_pay11 u) j = chordInt (l j) (u j) := by
  simp only [k0_pay13, chordSlope_at, spu_l, select, cmpf, subf, mulf, addf, divf, maximumf, minimumf, logistic, broadcast,
    Ideal.subf_def, Ideal.mulf_def, Ideal.addf_def, Ideal.divf_def, Ideal.maximumf_def, Ideal.minimumf_def, Ideal.logistic_def,
    Ideal.ofBits_def, ofBits_zero, ofBits_one, zero_sub]
  rfl

/-- The tangent at a point p: its slope and its intercept. -/
theorem dspu_at : k0_pay14 (F := Ideal) p j = dspu (p j) := by
  simp only [k0_pay14, select, cmpf, subf, mulf, addf, divf, maximumf, minimumf, logistic, broadcast,
    Ideal.subf_def, Ideal.mulf_def, Ideal.addf_def, Ideal.divf_def, Ideal.maximumf_def, Ideal.minimumf_def, Ideal.logistic_def,
    Ideal.ofBits_def, ofBits_zero, ofBits_one, zero_sub]
  rfl
theorem tanInt_at : k0_pay15 (F := Ideal) p j = tanInt (p j) := by
  simp only [k0_pay15, dspu_at, select, cmpf, subf, mulf, addf, divf, maximumf, minimumf, logistic, broadcast,
    Ideal.subf_def, Ideal.mulf_def, Ideal.addf_def, Ideal.divf_def, Ideal.maximumf_def, Ideal.minimumf_def, Ideal.logistic_def,
    Ideal.ofBits_def, ofBits_zero, ofBits_one, zero_sub]
  rfl

/-- The slope of the line through (l, spu l) and (0, −½). -/
theorem originSlope_at : k0_pay16 (F := Ideal) l (k0_pay10 l) j = originSlope (l j) := by
  simp only [k0_pay16, spu_l, select, cmpf, subf, mulf, addf, divf, maximumf, minimumf, logistic, broadcast,
    Ideal.subf_def, Ideal.mulf_def, Ideal.addf_def, Ideal.divf_def, Ideal.maximumf_def, Ideal.minimumf_def, Ideal.logistic_def,
    Ideal.ofBits_def, ofBits_zero, ofBits_one, zero_sub]
  rfl

/-- The constant blocks −½ and 0, and the bit of u > 0. -/
theorem negHalf_at : k0_pay17 (F := Ideal) j = negHalf := rfl
theorem zero_at : k0_pay19 (F := Ideal) j = 0 := by
  simp only [k0_pay19, broadcast, Ideal.ofBits_def, ofBits_zero]
theorem uPos_at : k0_pay18 (F := Ideal) u j = Ideal.cmp .ogt (u j) 0 := by
  simp only [k0_pay18, cmpf, broadcast, Ideal.ofBits_def, ofBits_zero]
  rfl

/-- The lower line's slope, from the pieces above. -/
theorem lbSlope_at :
    k0_pay2 (F := Ideal) (k0_pay9 x l u) (k0_pay12 l u (k0_pay10 l) (k0_pay11 u)) (k0_pay14 (k0_pay9 x l u))
      (k0_pay16 l (k0_pay10 l)) (k0_pay18 (F := Ideal) u) (k0_pay19 (F := Ideal)) j = lbSlope (x j) (l j) (u j) := by
  simp only [k0_pay2, k0_pay1, clip_at, chordSlope_at, dspu_at, originSlope_at, uPos_at, zero_at, select, cmpf, subf, mulf, addf, divf, maximumf, minimumf, logistic, broadcast,
    Ideal.subf_def, Ideal.mulf_def, Ideal.addf_def, Ideal.divf_def, Ideal.maximumf_def, Ideal.minimumf_def, Ideal.logistic_def,
    Ideal.ofBits_def, ofBits_zero, ofBits_one, zero_sub]
  rfl

/-- The second stored block: the lower bound. -/
theorem lOut_at :
    k0_pay3 (F := Ideal) l u (k0_pay9 x l u) (k0_pay12 l u (k0_pay10 l) (k0_pay11 u)) (k0_pay13 l u (k0_pay10 l) (k0_pay11 u))
      (k0_pay14 (k0_pay9 x l u)) (k0_pay15 (k0_pay9 x l u)) (k0_pay16 l (k0_pay10 l)) (k0_pay17 (F := Ideal)) (k0_pay18 (F := Ideal) u) (k0_pay19 (F := Ideal)) j
      = lOut (x j) (l j) (u j) := by
  simp only [k0_pay3, k0_pay1, lbSlope_at, clip_at, chordInt_at, tanInt_at, negHalf_at, uPos_at, zero_at, select, cmpf, subf, mulf, addf, divf, maximumf, minimumf, logistic, broadcast,
    Ideal.subf_def, Ideal.mulf_def, Ideal.addf_def, Ideal.divf_def, Ideal.maximumf_def, Ideal.minimumf_def, Ideal.logistic_def,
    Ideal.ofBits_def, ofBits_zero, ofBits_one, zero_sub]
  rfl

/-- The third stored block: the upper bound. -/
theorem uOut_at :
    k0_pay4 (F := Ideal) l u (k0_pay9 x l u) (k0_pay12 l u (k0_pay10 l) (k0_pay11 u)) (k0_pay13 l u (k0_pay10 l) (k0_pay11 u))
      (k0_pay14 (k0_pay9 x l u)) (k0_pay15 (k0_pay9 x l u)) (k0_pay16 l (k0_pay10 l)) (k0_pay18 (F := Ideal) u) (k0_pay19 (F := Ideal)) j
      = uOut (x j) (l j) (u j) := by
  simp only [k0_pay4, lbSlope_at, clip_at, chordSlope_at, chordInt_at, dspu_at, tanInt_at, uPos_at, zero_at, select, cmpf, subf, mulf, addf, divf, maximumf, minimumf, logistic, broadcast,
    Ideal.subf_def, Ideal.mulf_def, Ideal.addf_def, Ideal.divf_def, Ideal.maximumf_def, Ideal.minimumf_def, Ideal.logistic_def,
    Ideal.ofBits_def, ofBits_zero, ofBits_one, zero_sub]
  rfl

end Cert.Spu.Ker

end
-- ==== Proof.SpuKernel.lean ====
/-
  What the kernel's program leaves in its three results. The program lays each 16 777 216 × 1 argument out as a
  131072 × 128 array (the same elements in row-major order), runs the kernel over 32 grid points — point t loads rows
  4096·t … 4096·t + 4095 of the three laid-out arguments, and writes the same rows of three output arrays — and lays
  each output array out again as 16 777 216 × 1. Since the body acts element by element and every window's block at a
  point covers the same rows, what point t writes back is block t of ONE function of the laid-out arguments; the 32
  blocks tile the array, so each output array is that function everywhere; and laying out there and back is the
  identity on indices, so each result at an index i is the activation, the lower bound or the upper bound of the
  arguments at i.
-/
import proofs.«141930_j37503654429000_1_alg».proof.Proof.Gen.KernelIdeal.Frame
import proofs.«141930_j37503654429000_1_alg».proof.Proof.SpuBody
import Idealize.ShloMosaic.Lib.Pipeline.Value
import Idealize.ShloMosaic.Lib.StableHlo.Run

set_option maxRecDepth 16384

noncomputable section

namespace Cert.Spu.KerValue

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- A laid-out array: 131072 × 128 extended reals. -/
abbrev Arr2 := S131072x128.Idx → Elt Ideal .f32

/-- The three output arrays as functions of the three laid-out arguments, index by index. -/
def G3 (X : Arr2) : Arr2 := fun i => spu (X i)
def G4 (X L U : Arr2) : Arr2 := fun i => lOut (X i) (L i) (U i)
def G5 (X L U : Arr2) : Arr2 := fun i => uOut (X i) (L i) (U i)

/-! ## Where a block sits -/

/-- The printed index maps, decided over the 32 points: every window's block index at point t is (t, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

/-- So an input window's block and an output window's block at one point sit at the same rows and lanes: position j of
    either is array index (4096·t + j₀, j₁). -/
theorem emb03 (t : Fin cfg0.N) (j : S4096x128.Idx) :
    ((cfg0.win 0).blk t).view.emb j = ((cfg0.win 3).blk t).view.emb j := by
  obtain ⟨⟨a0, a1⟩, ⟨b0, b1⟩, ⟨c0, c1⟩, ⟨d0, d1⟩, ⟨e0, e1⟩, ⟨f0, f1⟩⟩ := idx_facts t
  funext a; apply Fin.ext
  match a with
  | ⟨0, _⟩ => show win0_0.index t (0 : Fin 2) * 4096 + 1 * (j 0).val = win0_3.index t (0 : Fin 2) * 4096 + 1 * (j 0).val; omega
  | ⟨1, _⟩ => show win0_0.index t (1 : Fin 2) * 128 + 1 * (j 1).val = win0_3.index t (1 : Fin 2) * 128 + 1 * (j 1).val; omega
theorem emb04 (t : Fin cfg0.N) (j : S4096x128.Idx) :
    ((cfg0.win 0).blk t).view.emb j = ((cfg0.win 4).blk t).view.emb j := by
  obtain ⟨⟨a0, a1⟩, ⟨b0, b1⟩, ⟨c0, c1⟩, ⟨d0, d1⟩, ⟨e0, e1⟩, ⟨f0, f1⟩⟩ := idx_facts t
  funext a; apply Fin.ext
  match a with
  | ⟨0, _⟩ => show win0_0.index t (0 : Fin 2) * 4096 + 1 * (j 0).val = win0_4.index t (0 : Fin 2) * 4096 + 1 * (j 0).val; omega
  | ⟨1, _⟩ => show win0_0.index t (1 : Fin 2) * 128 + 1 * (j 1).val = win0_4.index t (1 : Fin 2) * 128 + 1 * (j 1).val; omega
theorem emb14 (t : Fin cfg0.N) (j : S4096x128.Idx) :
    ((cfg0.win 1).blk t).view.emb j = ((cfg0.win 4).blk t).view.emb j := by
  obtain ⟨⟨a0, a1⟩, ⟨b0, b1⟩, ⟨c0, c1⟩, ⟨d0, d1⟩, ⟨e0, e1⟩, ⟨f0, f1⟩⟩ := idx_facts t
  funext a; apply Fin.ext
  match a with
  | ⟨0, _⟩ => show win0_1.index t (0 : Fin 2) * 4096 + 1 * (j 0).val = win0_4.index t (0 : Fin 2) * 4096 + 1 * (j 0).val; omega
  | ⟨1, _⟩ => show win0_1.index t (1 : Fin 2) * 128 + 1 * (j 1).val = win0_4.index t (1 : Fin 2) * 128 + 1 * (j 1).val; omega
theorem emb24 (t : Fin cfg0.N) (j : S4096x128.Idx) :
    ((cfg0.win 2).blk t).view.emb j = ((cfg0.win 4).blk t).view.emb j := by
  obtain ⟨⟨a0, a1⟩, ⟨b0, b1⟩, ⟨c0, c1⟩, ⟨d0, d1⟩, ⟨e0, e1⟩, ⟨f0, f1⟩⟩ := idx_facts t
  funext a; apply Fin.ext
  match a with
  | ⟨0, _⟩ => show win0_2.index t (0 : Fin 2) * 4096 + 1 * (j 0).val = win0_4.index t (0 : Fin 2) * 4096 + 1 * (j 0).val; omega
  | ⟨1, _⟩ => show win0_2.index t (1 : Fin 2) * 128 + 1 * (j 1).val = win0_4.index t (1 : Fin 2) * 128 + 1 * (j 1).val; omega
theorem emb05 (t : Fin cfg0.N) (j : S4096x128.Idx) :
    ((cfg0.win 0).blk t).view.emb j = ((cfg0.win 5).blk t).view.emb j := by
  obtain ⟨⟨a0, a1⟩, ⟨b0, b1⟩, ⟨c0, c1⟩, ⟨d0, d1⟩, ⟨e0, e1⟩, ⟨f0, f1⟩⟩ := idx_facts t
  funext a; apply Fin.ext
  match a with
  | ⟨0, _⟩ => show win0_0.index t (0 : Fin 2) * 4096 + 1 * (j 0).val = win0_5.index t (0 : Fin 2) * 4096 + 1 * (j 0).val; omega
  | ⟨1, _⟩ => show win0_0.index t (1 : Fin 2) * 128 + 1 * (j 1).val = win0_5.index t (1 : Fin 2) * 128 + 1 * (j 1).val; omega
theorem emb15 (t : Fin cfg0.N) (j : S4096x128.Idx) :
    ((cfg0.win 1).blk t).view.emb j = ((cfg0.win 5).blk t).view.emb j := by
  obtain ⟨⟨a0, a1⟩, ⟨b0, b1⟩, ⟨c0, c1⟩, ⟨d0, d1⟩, ⟨e0, e1⟩, ⟨f0, f1⟩⟩ := idx_facts t
  funext a; apply Fin.ext
  match a with
  | ⟨0, _⟩ => show win0_1.index t (0 : Fin 2) * 4096 + 1 * (j 0).val = win0_5.index t (0 : Fin 2) * 4096 + 1 * (j 0).val; omega
  | ⟨1, _⟩ => show win0_1.index t (1 : Fin 2) * 128 + 1 * (j 1).val = win0_5.index t (1 : Fin 2) * 128 + 1 * (j 1).val; omega
theorem emb25 (t : Fin cfg0.N) (j : S4096x128.Idx) :
    ((cfg0.win 2).blk t).view.emb j = ((cfg0.win 5).blk t).view.emb j := by
  obtain ⟨⟨a0, a1⟩, ⟨b0, b1⟩, ⟨c0, c1⟩, ⟨d0, d1⟩, ⟨e0, e1⟩, ⟨f0, f1⟩⟩ := idx_facts t
  funext a; apply Fin.ext
  match a with
  | ⟨0, _⟩ => show win0_2.index t (0 : Fin 2) * 4096 + 1 * (j 0).val = win0_5.index t (0 : Fin 2) * 4096 + 1 * (j 0).val; omega
  | ⟨1, _⟩ => show win0_2.index t (1 : Fin 2) * 128 + 1 * (j 1).val = win0_5.index t (1 : Fin 2) * 128 + 1 * (j 1).val; omega

/-! ## What a point writes back: block t of one function of the laid-out arguments -/

theorem flushed3_eq (c : Dev nD) (t : Fin cfg0.N) :
    (dats m 0 c).flushed 3 t = ((cfg0.win 3).blk t).view.read (Elt Ideal) (G3 (V m c main_call0_v0)) := by
  show (cfg0.win 3).cut (grid0.coords t) ((dats m 0 c).after 3 t) = _
  rw [after0_3]
  unfold out0_3
  rw [View.canon_unit_zero hz]
  simp only [View.ld_unit_zero (S := S4096x128) hz]
  funext j
  refine (Ker.spu_x (iblk m c 0 t) j).trans ?_
  show spu (V m c main_call0_v0 (((cfg0.win 0).blk t).view.emb j)) = _
  rw [emb03 t j]
  rfl

theorem flushed4_eq (c : Dev nD) (t : Fin cfg0.N) :
    (dats m 0 c).flushed 4 t = ((cfg0.win 4).blk t).view.read (Elt Ideal)
      (G4 (V m c main_call0_v0) (V m c main_call0_v1) (V m c main_call0_v2)) := by
  show (cfg0.win 4).cut (grid0.coords t) ((dats m 0 c).after 4 t) = _
  rw [after0_4]
  unfold out0_4
  rw [View.canon_unit_zero hz]
  simp only [View.ld_unit_zero (S := S4096x128) hz, Ker.pay6_eq, Ker.pay7_eq]
  funext j
  refine (Ker.lOut_at (iblk m c 0 t) (iblk m c 1 t) (iblk m c 2 t) j).trans ?_
  show lOut (V m c main_call0_v0 (((cfg0.win 0).blk t).view.emb j)) (V m c main_call0_v1 (((cfg0.win 1).blk t).view.emb j))
      (V m c main_call0_v2 (((cfg0.win 2).blk t).view.emb j)) = _
  rw [emb04 t j, emb14 t j, emb24 t j]
  rfl

theorem flushed5_eq (c : Dev nD) (t : Fin cfg0.N) :
    (dats m 0 c).flushed 5 t = ((cfg0.win 5).blk t).view.read (Elt Ideal)
      (G5 (V m c main_call0_v0) (V m c main_call0_v1) (V m c main_call0_v2)) := by
  show (cfg0.win 5).cut (grid0.coords t) ((dats m 0 c).after 5 t) = _
  rw [after0_5]
  unfold out0_5
  rw [View.canon_unit_zero hz]
  simp only [View.ld_unit_zero (S := S4096x128) hz, Ker.pay6_eq, Ker.pay7_eq]
  funext j
  refine (Ker.uOut_at (iblk m c 0 t) (iblk m c 1 t) (iblk m c 2 t) j).trans ?_
  show uOut (V m c main_call0_v0 (((cfg0.win 0).blk t).view.emb j)) (V m c main_call0_v1 (((cfg0.win 1).blk t).view.emb j))
      (V m c main_call0_v2 (((cfg0.win 2).blk t).view.emb j)) = _
  rw [emb05 t j, emb15 t j, emb25 t j]
  rfl

/-! ## The 32 blocks tile each output array -/

/-- An index of output array 0 is in point t's block iff each coordinate is in the block's range on its axis. -/
theorem mem_blk3 (t : Fin cfg0.N) (i : S131072x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_call0_v3_0).slice (win0_3.rect t)).set ↔ _
  rw [View.set_slice_whole, Rect.mem_set_unit]
  exact Iff.rfl

/-- Every index is in the block of the point its row number divided by 4096 names. -/
theorem cover3 (i : S131072x128.Idx) : ∃ t : Fin cfg0.N, (cfg0.win 3).flush t = true ∧ i ∈ ((cfg0.win 3).blk t).view.set := by
  have hi0 : (i 0).val < 131072 := (i 0).isLt
  have hi1 : (i 1).val < 128 := (i 1).isLt
  have hN : cfg0.N = 32 := N_0
  have hlt : (i 0).val / 4096 < cfg0.N := by rw [hN]; omega
  refine ⟨⟨(i 0).val / 4096, hlt⟩, flush0_3 _, ?_⟩
  rw [mem_blk3]
  obtain ⟨-, -, -, ⟨d0, d1⟩, ⟨e0, e1⟩, ⟨f0, f1⟩⟩ := idx_facts ⟨(i 0).val / 4096, hlt⟩
  intro a
  match a with
  | ⟨0, _⟩ =>
    show win0_3.index ⟨(i 0).val / 4096, hlt⟩ (0 : Fin 2) * 4096 ≤ (i 0).val ∧ (i 0).val < win0_3.index ⟨(i 0).val / 4096, hlt⟩ (0 : Fin 2) * 4096 + 4096
    rw [d0]; show (i 0).val / 4096 * 4096 ≤ (i 0).val ∧ (i 0).val < (i 0).val / 4096 * 4096 + 4096; omega
  | ⟨1, _⟩ =>
    show win0_3.index ⟨(i 0).val / 4096, hlt⟩ (1 : Fin 2) * 128 ≤ (i 1).val ∧ (i 1).val < win0_3.index ⟨(i 0).val / 4096, hlt⟩ (1 : Fin 2) * 128 + 128
    rw [d1]; omega

/-- An index of output array 1 is in point t's block iff each coordinate is in the block's range on its axis. -/
theorem mem_blk4 (t : Fin cfg0.N) (i : S131072x128.Idx) :
    i ∈ ((cfg0.win 4).blk t).view.set ↔ ∀ a : Fin 2, win0_4.index t a * S4096x128.size a ≤ (i a).val ∧ (i a).val < win0_4.index t a * S4096x128.size a + S4096x128.size a := by
  show i ∈ ((View.whole main_call0_v3_1).slice (win0_4.rect t)).set ↔ _
  rw [View.set_slice_whole, Rect.mem_set_unit]
  exact Iff.rfl

/-- Every index is in the block of the point its row number divided by 4096 names. -/
theorem cover4 (i : S131072x128.Idx) : ∃ t : Fin cfg0.N, (cfg0.win 4).flush t = true ∧ i ∈ ((cfg0.win 4).blk t).view.set := by
  have hi0 : (i 0).val < 131072 := (i 0).isLt
  have hi1 : (i 1).val < 128 := (i 1).isLt
  have hN : cfg0.N = 32 := N_0
  have hlt : (i 0).val / 4096 < cfg0.N := by rw [hN]; omega
  refine ⟨⟨(i 0).val / 4096, hlt⟩, flush0_4 _, ?_⟩
  rw [mem_blk4]
  obtain ⟨-, -, -, ⟨d0, d1⟩, ⟨e0, e1⟩, ⟨f0, f1⟩⟩ := idx_facts ⟨(i 0).val / 4096, hlt⟩
  intro a
  match a with
  | ⟨0, _⟩ =>
    show win0_4.index ⟨(i 0).val / 4096, hlt⟩ (0 : Fin 2) * 4096 ≤ (i 0).val ∧ (i 0).val < win0_4.index ⟨(i 0).val / 4096, hlt⟩ (0 : Fin 2) * 4096 + 4096
    rw [e0]; show (i 0).val / 4096 * 4096 ≤ (i 0).val ∧ (i 0).val < (i 0).val / 4096 * 4096 + 4096; omega
  | ⟨1, _⟩ =>
    show win0_4.index ⟨(i 0).val / 4096, hlt⟩ (1 : Fin 2) * 128 ≤ (i 1).val ∧ (i 1).val < win0_4.index ⟨(i 0).val / 4096, hlt⟩ (1 : Fin 2) * 128 + 128
    rw [e1]; omega

/-- An index of output array 2 is in point t's block iff each coordinate is in the block's range on its axis. -/
theorem mem_blk5 (t : Fin cfg0.N) (i : S131072x128.Idx) :
    i ∈ ((cfg0.win 5).blk t).view.set ↔ ∀ a : Fin 2, win0_5.index t a * S4096x128.size a ≤ (i a).val ∧ (i a).val < win0_5.index t a * S4096x128.size a + S4096x128.size a := by
  show i ∈ ((View.whole main_call0_v3_2).slice (win0_5.rect t)).set ↔ _
  rw [View.set_slice_whole, Rect.mem_set_unit]
  exact Iff.rfl

/-- Every index is in the block of the point its row number divided by 4096 names. -/
theorem cover5 (i : S131072x128.Idx) : ∃ t : Fin cfg0.N, (cfg0.win 5).flush t = true ∧ i ∈ ((cfg0.win 5).blk t).view.set := by
  have hi0 : (i 0).val < 131072 := (i 0).isLt
  have hi1 : (i 1).val < 128 := (i 1).isLt
  have hN : cfg0.N = 32 := N_0
  have hlt : (i 0).val / 4096 < cfg0.N := by rw [hN]; omega
  refine ⟨⟨(i 0).val / 4096, hlt⟩, flush0_5 _, ?_⟩
  rw [mem_blk5]
  obtain ⟨-, -, -, ⟨d0, d1⟩, ⟨e0, e1⟩, ⟨f0, f1⟩⟩ := idx_facts ⟨(i 0).val / 4096, hlt⟩
  intro a
  match a with
  | ⟨0, _⟩ =>
    show win0_5.index ⟨(i 0).val / 4096, hlt⟩ (0 : Fin 2) * 4096 ≤ (i 0).val ∧ (i 0).val < win0_5.index ⟨(i 0).val / 4096, hlt⟩ (0 : Fin 2) * 4096 + 4096
    rw [f0]; show (i 0).val / 4096 * 4096 ≤ (i 0).val ∧ (i 0).val < (i 0).val / 4096 * 4096 + 4096; omega
  | ⟨1, _⟩ =>
    show win0_5.index ⟨(i 0).val / 4096, hlt⟩ (1 : Fin 2) * 128 ≤ (i 1).val ∧ (i 1).val < win0_5.index ⟨(i 0).val / 4096, hlt⟩ (1 : Fin 2) * 128 + 128
    rw [f1]; omega

/-! ## The output arrays after the run -/

/-- Output array 0 after the run. -/
theorem final3 (c : Dev nD) : (dats m 0 c).arrAt 3 cfg0.N = G3 (V m c main_call0_v0) :=
  (dats m 0 c).arrAt_eq_of_cover 3 (G3 (V m c main_call0_v0)) (fun t _ => flushed3_eq m c t) cover3

/-- Output array 1 after the run. -/
theorem final4 (c : Dev nD) : (dats m 0 c).arrAt 4 cfg0.N = G4 (V m c main_call0_v0) (V m c main_call0_v1) (V m c main_call0_v2) :=
  (dats m 0 c).arrAt_eq_of_cover 4 (G4 (V m c main_call0_v0) (V m c main_call0_v1) (V m c main_call0_v2)) (fun t _ => flushed4_eq m c t) cover4

/-- Output array 2 after the run. -/
theorem final5 (c : Dev nD) : (dats m 0 c).arrAt 5 cfg0.N = G5 (V m c main_call0_v0) (V m c main_call0_v1) (V m c main_call0_v2) :=
  (dats m 0 c).arrAt_eq_of_cover 5 (G5 (V m c main_call0_v0) (V m c main_call0_v1) (V m c main_call0_v2)) (fun t _ => flushed5_eq m c t) cover5

/-! ## The host operations around the kernel -/

/-- The kernel's three input arrays are the arguments laid out as 131072 × 128. -/
theorem V_x (c : Dev nD) : (V m c main_call0_v0 : Arr2)
    = shapeCast S131072x128 (m ((c : Thread nD τ).loc main_arg0)) shapeCasts_S16777216x1_S131072x128 := by
  show StableHlo.after hostOps0 (fun b => m (c, b)) (Proc.devRef .tc main_call0_v0) = _
  after_results
  rfl
theorem V_l (c : Dev nD) : (V m c main_call0_v1 : Arr2)
    = shapeCast S131072x128 (m ((c : Thread nD τ).loc main_arg1)) shapeCasts_S16777216x1_S131072x128 := by
  show StableHlo.after hostOps0 (fun b => m (c, b)) (Proc.devRef .tc main_call0_v1) = _
  after_results
  rfl
theorem V_u (c : Dev nD) : (V m c main_call0_v2 : Arr2)
    = shapeCast S131072x128 (m ((c : Thread nD τ).loc main_arg2)) shapeCasts_S16777216x1_S131072x128 := by
  show StableHlo.after hostOps0 (fun b => m (c, b)) (Proc.devRef .tc main_call0_v2) = _
  after_results
  rfl

/-- Result 0 of the program: output array 0 of the kernel, laid out again as 16 777 216 × 1. -/
theorem tail3 (c : Dev nD) :
    (Pipeline.afterTail₀ cfgs (dats m) 0 (V0 m) [hostOps1] c main_v0_0 : S16777216x1.Idx → Elt Ideal .f32)
      = shapeCast S16777216x1 (G3 (V m c main_call0_v0)) shapeCasts_S131072x128_S16777216x1 := by
  have e : Pipeline.withArrays spec0 c (V0 m c) (fun w => (dats m 0 c).arrAt w cfg0.N) (Proc.devRef .tc (Pipeline.arrRef spec0 3))
      = G3 (V m c main_call0_v0) :=
    (Pipeline.withArrays_arr spec0 launch0.win.arr_inj c _ _ 3).trans (final3 m c)
  unfold Pipeline.afterTail₀
  show StableHlo.after hostOps1 _ (Proc.devRef .tc main_v0_0) = _
  after_results
  exact congrArg (fun y => shapeCast S16777216x1 y shapeCasts_S131072x128_S16777216x1) e

/-- Result 1 of the program: output array 1 of the kernel, laid out again as 16 777 216 × 1. -/
theorem tail4 (c : Dev nD) :
    (Pipeline.afterTail₀ cfgs (dats m) 0 (V0 m) [hostOps1] c main_v0_1 : S16777216x1.Idx → Elt Ideal .f32)
      = shapeCast S16777216x1 (G4 (V m c main_call0_v0) (V m c main_call0_v1) (V m c main_call0_v2)) shapeCasts_S131072x128_S16777216x1 := by
  have e : Pipeline.withArrays spec0 c (V0 m c) (fun w => (dats m 0 c).arrAt w cfg0.N) (Proc.devRef .tc (Pipeline.arrRef spec0 4))
      = G4 (V m c main_call0_v0) (V m c main_call0_v1) (V m c main_call0_v2) :=
    (Pipeline.withArrays_arr spec0 launch0.win.arr_inj c _ _ 4).trans (final4 m c)
  unfold Pipeline.afterTail₀
  show StableHlo.after hostOps1 _ (Proc.devRef .tc main_v0_1) = _
  after_results
  exact congrArg (fun y => shapeCast S16777216x1 y shapeCasts_S131072x128_S16777216x1) e

/-- Result 2 of the program: output array 2 of the kernel, laid out again as 16 777 216 × 1. -/
theorem tail5 (c : Dev nD) :
    (Pipeline.afterTail₀ cfgs (dats m) 0 (V0 m) [hostOps1] c main_v0_2 : S16777216x1.Idx → Elt Ideal .f32)
      = shapeCast S16777216x1 (G5 (V m c main_call0_v0) (V m c main_call0_v1) (V m c main_call0_v2)) shapeCasts_S131072x128_S16777216x1 := by
  have e : Pipeline.withArrays spec0 c (V0 m c) (fun w => (dats m 0 c).arrAt w cfg0.N) (Proc.devRef .tc (Pipeline.arrRef spec0 5))
      = G5 (V m c main_call0_v0) (V m c main_call0_v1) (V m c main_call0_v2) :=
    (Pipeline.withArrays_arr spec0 launch0.win.arr_inj c _ _ 5).trans (final5 m c)
  unfold Pipeline.afterTail₀
  show StableHlo.after hostOps1 _ (Proc.devRef .tc main_v0_2) = _
  after_results
  exact congrArg (fun y => shapeCast S16777216x1 y shapeCasts_S131072x128_S16777216x1) e

/-- Laying an array out as 131072 × 128 and reading the result where the inverse layout puts index i reads the array
    at i. -/
theorem there_back (y : S16777216x1.Idx → Elt Ideal .f32) (i : S16777216x1.Idx) :
    shapeCast S131072x128 y shapeCasts_S16777216x1_S131072x128 (Shape.reshapeEquiv shapeCasts_S131072x128_S16777216x1 i) = y i :=
  congrFun (shapeCast_shapeCast y shapeCasts_S16777216x1_S131072x128 shapeCasts_S131072x128_S16777216x1) i

/-- The three results as functions of the arguments, index by index. -/
theorem res3 (c : Dev nD) :
    shapeCast S16777216x1 (G3 (V m c main_call0_v0)) shapeCasts_S131072x128_S16777216x1
      = fun i => spu (m ((c : Thread nD τ).loc main_arg0) i) := by
  rw [V_x]
  funext i
  show spu (shapeCast S131072x128 _ _ (Shape.reshapeEquiv _ i)) = _
  rw [there_back]
theorem res4 (c : Dev nD) :
    shapeCast S16777216x1 (G4 (V m c main_call0_v0) (V m c main_call0_v1) (V m c main_call0_v2)) shapeCasts_S131072x128_S16777216x1
      = fun i => lOut (m ((c : Thread nD τ).loc main_arg0) i) (m ((c : Thread nD τ).loc main_arg1) i) (m ((c : Thread nD τ).loc main_arg2) i) := by
  rw [V_x, V_l, V_u]
  funext i
  show lOut (shapeCast S131072x128 _ _ (Shape.reshapeEquiv _ i)) (shapeCast S131072x128 _ _ (Shape.reshapeEquiv _ i))
    (shapeCast S131072x128 _ _ (Shape.reshapeEquiv _ i)) = _
  rw [there_back, there_back, there_back]
theorem res5 (c : Dev nD) :
    shapeCast S16777216x1 (G5 (V m c main_call0_v0) (V m c main_call0_v1) (V m c main_call0_v2)) shapeCasts_S131072x128_S16777216x1
      = fun i => uOut (m ((c : Thread nD τ).loc main_arg0) i) (m ((c : Thread nD τ).loc main_arg1) i) (m ((c : Thread nD τ).loc main_arg2) i) := by
  rw [V_x, V_l, V_u]
  funext i
  show uOut (shapeCast S131072x128 _ _ (Shape.reshapeEquiv _ i)) (shapeCast S131072x128 _ _ (Shape.reshapeEquiv _ i))
    (shapeCast S131072x128 _ _ (Shape.reshapeEquiv _ i)) = _
  rw [there_back, there_back, there_back]

/-! ## The run, read -/

/-- Every weakly fair execution of the kernel's program terminates with its three results at the activation, the
    lower bound and the upper bound of the arguments, index by index, and the arguments unchanged. -/
theorem run : θ_run defs (onTc (τ := τ) (main (F := Ideal))) ⟨m, fun _ => 0, ρ⟩ fun r => ∀ c : Dev nD,
      r.2.mem ((c.tc : Thread nD τ).loc main_v0_0) = (fun i => spu (m ((c.tc : Thread nD τ).loc main_arg0) i))
      ∧ r.2.mem ((c.tc : Thread nD τ).loc main_v0_1) = (fun i => lOut (m ((c.tc : Thread nD τ).loc main_arg0) i) (m ((c.tc : Thread nD τ).loc main_arg1) i) (m ((c.tc : Thread nD τ).loc main_arg2) i))
      ∧ r.2.mem ((c.tc : Thread nD τ).loc main_v0_2) = (fun i => uOut (m ((c.tc : Thread nD τ).loc main_arg0) i) (m ((c.tc : Thread nD τ).loc main_arg1) i) (m ((c.tc : Thread nD τ).loc main_arg2) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(((h c).2 main_v0_0 (Pipeline.mem_restRefs_of main_v0_0 (by decide) (by decide))).trans (tail3 m c)).trans (res3 m c),
     (((h c).2 main_v0_1 (Pipeline.mem_restRefs_of main_v0_1 (by decide) (by decide))).trans (tail4 m c)).trans (res4 m c),
     (((h c).2 main_v0_2 (Pipeline.mem_restRefs_of main_v0_2 (by decide) (by decide))).trans (tail5 m c)).trans (res5 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.Spu.KerValue

end
-- ==== Proof.lean ====
/-
  The certificate: the kernel's program and the reference compute the same three arrays on the extended reals.

  Both programs apply, element by element, the same three functions of an element x and its bounds l and u — the
  activation spu x, a lower bound and an upper bound built from the chord, a tangent and one more line of spu
  (Proof/SpuSpec.lean). The reference does so directly on the 16 777 216 × 1 arrays (Proof/SpuReference.lean). The
  kernel's program first lays each argument out as 131072 × 128, runs a kernel whose 32 grid points each handle 4096
  whole rows, and lays the three outputs out again as 16 777 216 × 1 (Proof/SpuBody.lean for one block,
  Proof/SpuKernel.lean for the whole run); the two layouts cancel index by index. The two spellings differ only in
  how they negate (0 − s against −s) and in how they write the logistic function (one operation against
  1 / (1 + e^(−z))), which are the same extended reals by definition once the patterns of 0.0 and 1.0 are read.
  No input needs to be finite for any of this, so the precondition is not opened.

  The ideal pass rewrote nothing, so the idealized kernel is the kernel's own text and its conjunct is trivial; the
  three frames are the generated ones (the reference's is its generated run with the results dropped).
-/
import proofs.«141930_j37503654429000_1_alg».proof.Defs
import proofs.«141930_j37503654429000_1_alg».proof.Proof.Gen.Kernel
import proofs.«141930_j37503654429000_1_alg».proof.Proof.Gen.Kernel.Skeleton
import proofs.«141930_j37503654429000_1_alg».proof.Proof.Gen.Kernel.Launch
import proofs.«141930_j37503654429000_1_alg».proof.Proof.Gen.Kernel.Points
import proofs.«141930_j37503654429000_1_alg».proof.Proof.Gen.Kernel.Frame
import proofs.«141930_j37503654429000_1_alg».proof.Proof.Gen.KernelIdeal
import proofs.«141930_j37503654429000_1_alg».proof.Proof.Gen.KernelIdeal.Skeleton
import proofs.«141930_j37503654429000_1_alg».proof.Proof.Gen.KernelIdeal.Launch
import proofs.«141930_j37503654429000_1_alg».proof.Proof.Gen.KernelIdeal.Points
import proofs.«141930_j37503654429000_1_alg».proof.Proof.Gen.KernelIdeal.Frame
import proofs.«141930_j37503654429000_1_alg».proof.Proof.Gen.ReferenceIdeal
import proofs.«141930_j37503654429000_1_alg».proof.Proof.Gen.Pre_finite_inputs
import proofs.«141930_j37503654429000_1_alg».proof.Proof.Gen.ReferenceIdeal.Run
import proofs.«141930_j37503654429000_1_alg».proof.Proof.Gen.ReferenceIdeal.Read
import proofs.«141930_j37503654429000_1_alg».proof.Proof.SpuReference
import proofs.«141930_j37503654429000_1_alg».proof.Proof.SpuKernel
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- The two idealized programs, from memories that agree on x, l and u, end with the same three arrays: at every
    index the activation of x, the lower bound and the upper bound of (x, l, u). -/
theorem algebraic : Cert.algebraic_KernelIdeal_ReferenceIdeal := by
  intro m ρ m' ρ' _ hagree
  refine ⟨_, _, _, Cert.Spu.KerValue.run m ρ, ?_⟩
  refine (θ_run Cert.ReferenceIdeal.defs _ _).mono (fun _ h c => ⟨?_, ?_, ?_, (h c).2.2.2⟩)
    (Cert.ReferenceIdeal.Value.run (F := Ideal) m' ρ')
  · rw [(h c).1, Cert.ReferenceIdeal.Read.val_main_v14_eq, (hagree c).1]
    exact funext fun i => Cert.Spu.Ref.spu_x _ i
  · rw [(h c).2.1, Cert.ReferenceIdeal.Read.val_main_v108_eq, (hagree c).1, (hagree c).2.1, (hagree c).2.2]
    exact funext fun i => Cert.Spu.Ref.lOut_at _ _ _ i
  · rw [(h c).2.2.1, Cert.ReferenceIdeal.Read.val_main_v115_eq, (hagree c).1, (hagree c).2.1, (hagree c).2.2]
    exact funext fun i => Cert.Spu.Ref.uOut_at _ _ _ i

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
